-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S10000x128 .f32) (main_arg1 : FVec F S10000x10000 .f32) (main_arg2 : FVec F S128x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S10000x128 : Shape := ⟨2, ![10000, 128]⟩
abbrev S10000x10000 : Shape := ⟨2, ![10000, 10000]⟩
abbrev S128x128 : Shape := ⟨2, ![128, 128]⟩
abbrev S200x10000 : Shape := ⟨2, ![200, 10000]⟩
abbrev S200x128 : Shape := ⟨2, ![200, 128]⟩

abbrev nBuf : Space → Nat
  | .hbm => 5
  | .vmem => 8
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .bf16⟩
  | .hbm, ⟨4, _⟩ => ⟨S10000x128, .f32⟩
  | .local _ .vmem, ⟨0, _⟩ => ⟨S10000x128, .f32⟩
  | .local _ .vmem, ⟨1, _⟩ => ⟨S128x128, .f32⟩
  | .local _ .vmem, ⟨2, _⟩ => ⟨S10000x128, .bf16⟩
  | .local _ .vmem, ⟨3, _⟩ => ⟨S200x10000, .f32⟩
  | .local _ .vmem, ⟨4, _⟩ => ⟨S200x10000, .f32⟩
  | .local _ .vmem, ⟨5, _⟩ => ⟨S10000x128, .bf16⟩
  | .local _ .vmem, ⟨6, _⟩ => ⟨S200x128, .f32⟩
  | .local _ .vmem, ⟨7, _⟩ => ⟨S200x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg2_1 : Ref sig .tc := ⟨.vmem, 7, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem2_1 : DmaSem sig := 7

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10000x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S200x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  packedbf16_S10000x128_S10000x128_0_0 : (Rect.unit (s := S10000x128) ![0, 0] S10000x128.size inb_S10000x128_S10000x128_0_0).PackedRows (EltTy.packing .bf16)
  inb_S200x10000_S200x10000_0_0 : ∀ a, (![0, 0] : Fin 2 → Nat) a + S200x10000.size a ≤ S200x10000.size a
  h_S200x10000 : 0 < S200x10000.numel
  shapeCasts_S10000x128_S10000x128 : S10000x128.ShapeCasts S10000x128
  inb_S200x128_S200x128_0_0 : ∀ a, (![0, 0] : Fin 2 → Nat) a + S200x128.size a ≤ S200x128.size a
  h_S200x128 : 0 < S200x128.numel
  dot_S10000x128_S128x128_S10000x128_1_0_0_1_n_n_wf : DotDims.WF S10000x128 S128x128 S10000x128 [1] [0] [0] [1] [] []
  dot_S200x10000_S10000x128_S200x128_1_0_0_1_n_n_wf : DotDims.WF S200x10000 S10000x128 S200x128 [1] [0] [0] [1] [] []
  hstage0_0 : ∀ j, (stage0_0 j).IsWhole
  hstage0_1 : ∀ j, (stage0_1 j).IsWhole
  hstage0_2 : ∀ j, (stage0_2 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x10000.size a ≤ S10000x10000.size a
  hwx1_0 : ∀ i : grid1.Coords, EltTy.bits .f32 = 32 ∨ (Rect.block (s := S10000x10000) S200x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .bf16 = 32 ∨ (Rect.block (s := S10000x128) S10000x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S200x128.size a ≤ S10000x128.size a
  hwx1_2 : ∀ i : grid1.Coords, EltTy.bits .f32 = 32 ∨ (Rect.block (s := S10000x128) S200x128.size (cc1_transform_2 i) (hinb1_2 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_v0) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S200x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S200x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩

abbrev nBuf : Space → Nat
  | .hbm => 5
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .f32⟩
  | .hbm, ⟨4, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.Spec.lean ====
/-
  The graph convolution as one function of its three argument arrays, over the extended reals.

  The product of an [M, K] matrix with a [K, N] matrix has at (p, q) the sum over k of a (p, k) · b (k, q).
  The layer's first result is adj · (v · W): the features v [10000, 128] times the weights W [128, 128] give the
  support, and the dense adjacency adj [10000, 10000] times the support gives the output. No law of arithmetic is
  needed between two programs that both compute it in this order, so infinite entries are no obstacle.
-/
import Idealize.ShloMosaic.PureOps.Ideal
import Idealize.ShloMosaic.Lib.ValueIdx

noncomputable section

open scoped BigOperators

namespace Cert.GraphConv

open Idealize.ShloMosaic Idealize.ShloMosaic.ValueIdx

/-- The matrix product [M, K] × [K, N] over the extended reals, index by index. -/
def matProd {M K N : Nat} (a : (⟨2, ![M, K]⟩ : Shape).Idx → EReal) (b : (⟨2, ![K, N]⟩ : Shape).Idx → EReal) :
    (⟨2, ![M, N]⟩ : Shape).Idx → EReal :=
  fun i => ∑ k : Fin K, a (ix2 (i 0) k) * b (ix2 k (i 1))

/-- Its entry (p, q) is the sum over k of a (p, k) · b (k, q). -/
theorem matProd_apply {M K N : Nat} (a : (⟨2, ![M, K]⟩ : Shape).Idx → EReal) (b : (⟨2, ![K, N]⟩ : Shape).Idx → EReal)
    (p : Fin M) (q : Fin N) : matProd a b (ix2 p q) = ∑ k : Fin K, a (ix2 p k) * b (ix2 k q) := rfl

/-- The layer's output: adj · (v · W). -/
def result (v : (⟨2, ![10000, 128]⟩ : Shape).Idx → EReal) (adj : (⟨2, ![10000, 10000]⟩ : Shape).Idx → EReal)
    (w : (⟨2, ![128, 128]⟩ : Shape).Idx → EReal) : (⟨2, ![10000, 128]⟩ : Shape).Idx → EReal :=
  matProd adj (matProd v w)

end Cert.GraphConv

end
-- ==== Proof.LibPlainDot.lean ====
/-
  A plain matrix product [M, K] × [K, N] read at an index over the extended reals.

  With the contraction on the left operand's axis 1 and the right operand's axis 0 and no batch axis, the product's
  entry (p, q) is the sum over k of lhs (p, k) · rhs (k, q): for a matrix unit's product into a zero accumulator
  (matmul_zero_apply) and for the host's dot_general (dotGeneral_apply) alike, whatever precision or schedule key
  they carry. Both follow from re-indexing the sum over the one-axis contraction shape by its coordinate (contr_sum).
-/
import Idealize.ShloMosaic.PureOps.Ideal.Laws
import Idealize.ShloMosaic.Lib.ValueIdx

noncomputable section

open scoped BigOperators

namespace Cert.PlainDot

open Idealize.ShloMosaic Idealize.ShloMosaic.ValueIdx

variable {M K N : Nat}

/-- The dimension numbers of the plain product. -/
abbrev plainDims (M K N : Nat) (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable (wf : DotDims.WF ⟨2, ![M, K]⟩ ⟨2, ![K, N]⟩ ⟨2, ![M, N]⟩ [1] [0] [0] [1] [] [])

/-- The left operand's row coordinate is the result's row, whatever the contraction index. -/
theorem lhs_row (j : (⟨2, ![M, N]⟩ : Shape).Idx) (r : (plainDims M K N wf).contr.Idx) :
    ((plainDims M K N wf).lhsIdx j r 0).val = (j 0).val := by
  unfold DotDims.lhsIdx
  rw [dif_neg (show ¬ (0 : Fin 2) ∈ (plainDims M K N wf).lhsBatch from List.not_mem_nil),
    dif_pos (show (0 : Fin 2) ∈ (plainDims M K N wf).lhsNonContracting from List.mem_singleton.mpr rfl)]
  rfl

/-- The right operand's column coordinate is the result's column, whatever the contraction index. -/
theorem rhs_col (j : (⟨2, ![M, N]⟩ : Shape).Idx) (r : (plainDims M K N wf).contr.Idx) :
    ((plainDims M K N wf).rhsIdx j r 1).val = (j 1).val := by
  unfold DotDims.rhsIdx
  rw [dif_neg (show ¬ (1 : Fin 2) ∈ (plainDims M K N wf).rhsBatch from List.not_mem_nil),
    dif_pos (show (1 : Fin 2) ∈ (plainDims M K N wf).rhsNonContracting from List.mem_singleton.mpr rfl)]
  rfl

/-- The sum over the contraction shape is the sum over k of lhs (p, k) · rhs (k, q). -/
theorem contr_sum (lhs : (⟨2, ![M, K]⟩ : Shape).Idx → EReal) (rhs : (⟨2, ![K, N]⟩ : Shape).Idx → EReal) (p : Fin M) (q : Fin N) :
    ∑ k : (plainDims M K N wf).contr.Idx, lhs ((plainDims M K N wf).lhsIdx (ix2 p q) k) * rhs ((plainDims M K N wf).rhsIdx (ix2 p q) k)
      = ∑ k : Fin K, lhs (ix2 p k) * rhs (ix2 k q) := by
  rw [← Equiv.sum_comp (contrEquiv1 (plainDims M K N wf) K rfl rfl).symm]
  refine Finset.sum_congr rfl fun k _ => ?_
  have hk := contrEquiv1_symm_val (plainDims M K N wf) K rfl rfl k
  have el : (plainDims M K N wf).lhsIdx (ix2 p q) ((contrEquiv1 (plainDims M K N wf) K rfl rfl).symm k) = ix2 p k :=
    funext fun a => Fin.ext (by
      match a with
      | ⟨0, _⟩ => exact lhs_row wf _ _
      | ⟨1, _⟩ => exact ((plainDims M K N wf).lhsIdx_val_of_single rfl _ _).trans hk)
  have er : (plainDims M K N wf).rhsIdx (ix2 p q) ((contrEquiv1 (plainDims M K N wf) K rfl rfl).symm k) = ix2 k q :=
    funext fun a => Fin.ext (by
      match a with
      | ⟨0, _⟩ => exact ((plainDims M K N wf).rhsIdx_val_of_single rfl _ _).trans hk
      | ⟨1, _⟩ => exact rhs_col wf _ _)
  rw [el, er]

/-- A MATRIX UNIT'S PRODUCT INTO A ZERO ACCUMULATOR, read at (p, q), for ANY dimension numbers of the plain form. -/
theorem matmul_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![M, K]⟩ φ₁) (rhs : FVec Ideal ⟨2, ![K, N]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 k q) := by
  obtain ⟨lc, rc, ln, rn, lb, rb, wf⟩ := d
  dsimp only at h1 h2 h3 h4 h5 h6
  subst h1 h2 h3 h4 h5 h6
  rw [Ideal.matmul_constant_zero_apply]
  exact contr_sum wf lhs rhs p q

/-- THE HOST'S dot_general, read at (p, q), for ANY dimension numbers of the plain form. -/
theorem dotGeneral_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (sched : HostSchedule) (lhs : FVec Ideal ⟨2, ![M, K]⟩ φ₁) (rhs : FVec Ideal ⟨2, ![K, N]⟩ φ₂)
    (p : Fin M) (q : Fin N) :
    FloatOps.dotGeneral d prec sched lhs rhs (ix2 p q) = ∑ k : Fin K, lhs (ix2 p k) * rhs (ix2 k q) := by
  obtain ⟨lc, rc, ln, rn, lb, rb, wf⟩ := d
  dsimp only at h1 h2 h3 h4 h5 h6
  subst h1 h2 h3 h4 h5 h6
  rw [Ideal.dotGeneral_apply]
  exact contr_sum wf lhs rhs p q

end Cert.PlainDot

end
-- ==== Proof.MatProd.lean ====
/-
  Both spellings of a plain matrix product are the product of the specification.

  A matrix unit's product into a zero accumulator, and the host's dot_general, with the contraction on the left
  operand's axis 1 and the right operand's axis 0 and no batch axis, are each the function whose entry (p, q) is the
  sum over k of lhs (p, k) · rhs (k, q).
-/
import proofs.«144660_g21157008900740_cont_8to1_106_10_alg».proof.Proof.Spec
import proofs.«144660_g21157008900740_cont_8to1_106_10_alg».proof.Proof.LibPlainDot

noncomputable section

open scoped BigOperators

namespace Cert.GraphConv

open Idealize.ShloMosaic Idealize.ShloMosaic.ValueIdx

variable {M K N : Nat}

/-- A matrix unit's product into a zero accumulator is the matrix product. -/
theorem matmul_zero_eq {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![M, K]⟩ φ₁) (rhs : FVec Ideal ⟨2, ![K, N]⟩ φ₂) :
    FloatOps.matmul d prec lhs rhs (constant (F := Ideal) ⟨2, ![M, N]⟩ .f32 0x00000000#32) = matProd lhs rhs := by
  funext i
  obtain ⟨p, q, rfl⟩ : ∃ (p : Fin M) (q : Fin N), i = ix2 p q := ⟨i 0, i 1, eq_ix2 i⟩
  exact Cert.PlainDot.matmul_zero_apply d h1 h2 h3 h4 h5 h6 prec lhs rhs p q

/-- The host's dot_general is the matrix product. -/
theorem dotGeneral_eq {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (sched : HostSchedule) (lhs : FVec Ideal ⟨2, ![M, K]⟩ φ₁) (rhs : FVec Ideal ⟨2, ![K, N]⟩ φ₂) :
    FloatOps.dotGeneral d prec sched lhs rhs = matProd lhs rhs := by
  funext i
  obtain ⟨p, q, rfl⟩ : ∃ (p : Fin M) (q : Fin N), i = ix2 p q := ⟨i 0, i 1, eq_ix2 i⟩
  exact Cert.PlainDot.dotGeneral_apply d h1 h2 h3 h4 h5 h6 prec sched lhs rhs p q

end Cert.GraphConv

end
-- ==== Proof.RefValue.lean ====
/-
  The reference computes adj · (v · W).

  Its two dot_general operations, each a plain matrix product (contraction of the left operand's axis 1 with the
  right operand's axis 0), compose to the specification's result: the inner one is the support v · W, the outer one
  multiplies it by the adjacency.
-/
import proofs.«144660_g21157008900740_cont_8to1_106_10_alg».proof.Proof.Gen.ReferenceIdeal.Read
import proofs.«144660_g21157008900740_cont_8to1_106_10_alg».proof.Proof.MatProd

noncomputable section

namespace Cert.ReferenceIdeal.RefValue

open Cert.ReferenceIdeal Idealize.ShloMosaic

/-- The reference's result term at the extended reals is adj · (v · W). -/
theorem result_eq (x0 : (⟨S10000x128, .f32⟩ : BufTy).Contents (Elt Ideal)) (x1 : (⟨S10000x10000, .f32⟩ : BufTy).Contents (Elt Ideal))
    (x2 : (⟨S128x128, .f32⟩ : BufTy).Contents (Elt Ideal)) :
    Host.dotGeneral (F := Ideal) (φ₁ := .f32) (φ₂ := .f32) dot_S10000x10000_S10000x128_S10000x128_1_0_0_1_n_n none x1
        (Host.dotGeneral (F := Ideal) (φ₁ := .f32) (φ₂ := .f32) dot_S10000x128_S128x128_S10000x128_1_0_0_1_n_n none x0 x2)
      = Cert.GraphConv.result x0 x1 x2 := by
  simp only [Host.dotGeneral]
  rw [Cert.GraphConv.dotGeneral_eq (φ₁ := .f32) (φ₂ := .f32) dot_S10000x128_S128x128_S10000x128_1_0_0_1_n_n rfl rfl rfl rfl rfl rfl,
    Cert.GraphConv.dotGeneral_eq (φ₁ := .f32) (φ₂ := .f32) dot_S10000x10000_S10000x128_S10000x128_1_0_0_1_n_n rfl rfl rfl rfl rfl rfl]
  rfl

end Cert.ReferenceIdeal.RefValue

end
-- ==== Proof.KernelRun.lean ====
/-
  The kernel program's run with its result array named.

  The program is two pipelined regions in sequence: the first writes the support array, the second reads it
  together with the adjacency and writes the result. Every unscoped buffer ends at the contents the second
  region's write-backs leave; read at the result array this names its final contents, and read at the three
  argument arrays it gives them back as launched.
-/
import proofs.«144660_g21157008900740_cont_8to1_106_10_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array at what the second
    region's write-backs leave of it and the argument arrays as launched. -/
theorem run_named : θ_run defs (onTc (τ := τ) (main (F := F))) ⟨m, fun _ => 0, ρ⟩ (fun r => ∀ c : Dev nD,
      r.2.mem ((c.tc : Thread nD τ).loc main_v1) = W2 m ρ c (Proc.devRef .tc main_v1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨h c _ (mem_uc main_v1 (by decide)),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c)⟩)

end Cert.KernelIdeal.Whole

end
-- ==== Proof.SupportValue.lean ====
/-
  The first region leaves the support v · W in its output array.

  The region has no grid: one point, every window the whole array at block index 0. The body loads both operands
  whole, multiplies them on the matrix unit into a zero accumulator, narrows the product to the 16-bit format
  (no change of value on the extended reals) and stores it whole. So the one block written back is the whole
  array of the matrix product of the two input arrays as the region finds them.
-/
import proofs.«144660_g21157008900740_cont_8to1_106_10_alg».proof.Proof.Gen.KernelIdeal.Frame
import proofs.«144660_g21157008900740_cont_8to1_106_10_alg».proof.Proof.MatProd
import Idealize.ShloMosaic.Lib.Pipeline.Value

noncomputable section

namespace Cert.KernelIdeal.Support

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value is the matrix product of its two loaded blocks. -/
theorem pay_eq (x0 : Vec Ideal S10000x128 .f32) (x1 : Vec Ideal S128x128 .f32) :
    k0_pay1 (F := Ideal) x0 x1 = Cert.GraphConv.matProd x0 x1 := by
  unfold k0_pay1
  exact Cert.GraphConv.matmul_zero_eq (φ₁ := .f32) (φ₂ := .f32) _ rfl rfl rfl rfl rfl rfl none x0 x1

/-- At the region's one point every window's block index is zero on both axes. -/
theorem idx_zero : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The features' block is the whole features array. -/
theorem features_blk (c : Dev nD) (t : Fin cfg0.N) : (iblk0 V c 0 t : Vec Ideal S10000x128 .f32) = V c main_arg0 := by
  obtain ⟨e0, e1, -⟩ := idx_zero t
  funext j
  unfold iblk0
  rw [View.read_apply]
  show V c main_arg0 _ = V c main_arg0 j
  refine congrArg _ ?_
  funext a
  apply Fin.ext
  match a with
  | ⟨0, _⟩ => show win0_0.index t (0 : Fin 2) * 10000 + 1 * (j 0).val = (j 0).val; omega
  | ⟨1, _⟩ => show win0_0.index t (1 : Fin 2) * 128 + 1 * (j 1).val = (j 1).val; omega

/-- The weights' block is the whole weights array. -/
theorem weights_blk (c : Dev nD) (t : Fin cfg0.N) : (iblk0 V c 1 t : Vec Ideal S128x128 .f32) = V c main_arg2 := by
  obtain ⟨-, -, e0, e1, -⟩ := idx_zero t
  funext j
  unfold iblk0
  rw [View.read_apply]
  show V c main_arg2 _ = V c main_arg2 j
  refine congrArg _ ?_
  funext a
  apply Fin.ext
  match a with
  | ⟨0, _⟩ => show win0_1.index t (0 : Fin 2) * 128 + 1 * (j 0).val = (j 0).val; omega
  | ⟨1, _⟩ => show win0_1.index t (1 : Fin 2) * 128 + 1 * (j 1).val = (j 1).val; omega

/-- What the point writes back is its block (the whole array) of the product of the two input arrays. -/
theorem flushed_eq (c : Dev nD) (t : Fin cfg0.N) :
    (dat0 (F := Ideal) V c).flushed 2 t
      = ((cfg0.win 2).blk t).view.read (Elt Ideal) (Cert.GraphConv.matProd (V c main_arg0) (V c main_arg2)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x128) hz]
  rw [features_blk V c t, weights_blk V c t, pay_eq]
  obtain ⟨-, -, -, -, e0, e1⟩ := idx_zero t
  funext j
  show Cert.GraphConv.matProd (V c main_arg0) (V c main_arg2) _
    = Cert.GraphConv.matProd (V c main_arg0) (V c main_arg2) (((cfg0.win 2).blk t).view.emb j)
  refine congrArg _ ?_
  funext a
  apply Fin.ext
  match a with
  | ⟨0, _⟩ => show (j 0).val = win0_2.index t (0 : Fin 2) * 10000 + 1 * (j 0).val; omega
  | ⟨1, _⟩ => show (j 1).val = win0_2.index t (1 : Fin 2) * 128 + 1 * (j 1).val; omega

/-- An index of the array is in the point's block iff each coordinate is in the block's range on its axis. -/
theorem mem_blk (t : Fin cfg0.N) (i : S10000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v0).slice (win0_2.rect t)).set ↔ _
  rw [View.set_slice_whole, Rect.mem_set_unit]
  exact Iff.rfl

/-- THE SUPPORT ARRAY after the region: the product of the features and the weights as the region finds them. -/
theorem final (c : Dev nD) :
    (dat0 (F := Ideal) V c).arrAt 2 cfg0.N = Cert.GraphConv.matProd (V c main_arg0) (V c main_arg2) :=
  (dat0 V c).arrAt_eq_of_cover 2 _ (fun t _ => flushed_eq V c t) (fun i => ⟨t0_0, flush0_2 t0_0, by
    rw [mem_blk]
    obtain ⟨-, -, -, -, e0, e1⟩ := idx_zero t0_0
    have h0 : (i 0).val < 10000 := (i 0).isLt
    have h1 : (i 1).val < 128 := (i 1).isLt
    intro a
    match a with
    | ⟨0, _⟩ => show win0_2.index t0_0 (0 : Fin 2) * 10000 ≤ (i 0).val ∧ (i 0).val < win0_2.index t0_0 (0 : Fin 2) * 10000 + 10000; omega
    | ⟨1, _⟩ => show win0_2.index t0_0 (1 : Fin 2) * 128 ≤ (i 1).val ∧ (i 1).val < win0_2.index t0_0 (1 : Fin 2) * 128 + 128; omega⟩)

end Cert.KernelIdeal.Support

end
-- ==== Proof.SpmmValue.lean ====
/-
  The second region leaves adj · support in its output array.

  The grid has 50 points; point t reads rows 200·t … 200·t + 199 of the adjacency (a [200, 10000] block) and the
  whole support array, and writes rows 200·t … 200·t + 199 of the result (a [200, 128] block). The body narrows
  the adjacency block to the 16-bit format (no change of value on the extended reals) and multiplies it by the
  support on the matrix unit into a zero accumulator: row r of the block it stores is row 200·t + r of the
  product of the two whole arrays, since an entry of a matrix product depends on one row of its left factor.
  The 50 row blocks tile the result array.
-/
import proofs.«144660_g21157008900740_cont_8to1_106_10_alg».proof.Proof.Gen.KernelIdeal.Frame
import proofs.«144660_g21157008900740_cont_8to1_106_10_alg».proof.Proof.MatProd
import Idealize.ShloMosaic.Lib.Pipeline.Value

noncomputable section

open scoped BigOperators

namespace Cert.KernelIdeal.Spmm

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value is the matrix product of its two loaded blocks. -/
theorem pay_eq (x0 : Vec Ideal S200x10000 .f32) (x1 : Vec Ideal S10000x128 .bf16) :
    k1_pay1 (F := Ideal) x0 x1 = Cert.GraphConv.matProd x0 x1 := by
  unfold k1_pay1
  dsimp only
  rw [shapeCast_self]
  exact Cert.GraphConv.matmul_zero_eq (φ₁ := .bf16) (φ₂ := .bf16) _ rfl rfl rfl rfl rfl rfl none x0 x1

/-- The printed index maps over the grid: the adjacency's and the result's blocks are at row block t, column block
    0; the support's block is at (0, 0); and t is below 50. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 ∧ t.val < 50 :=
  (by decide +kernel : ∀ t : Fin grid1.N, _)

/-- Row r of the adjacency's block at point t is row 200·t + r of the adjacency. -/
theorem adj_blk (c : Dev nD) (t : Fin cfg1.N) (r : Fin 200) (k : Fin 10000) (p : Fin 10000) (hp : p.val = 200 * t.val + r.val) :
    (iblk1 V c 0 t : Vec Ideal S200x10000 .f32) (ix2 r k) = V c main_arg1 (ix2 p k) := by
  obtain ⟨e0, e1, -⟩ := idx_facts t
  unfold iblk1
  rw [View.read_apply]
  show V c main_arg1 _ = V c main_arg1 (ix2 p k)
  refine congrArg _ ?_
  funext a
  apply Fin.ext
  match a with
  | ⟨0, _⟩ => show win1_0.index t (0 : Fin 2) * 200 + 1 * r.val = p.val; omega
  | ⟨1, _⟩ => show win1_0.index t (1 : Fin 2) * 10000 + 1 * k.val = k.val; omega

/-- The support's block is the whole support array. -/
theorem support_blk (c : Dev nD) (t : Fin cfg1.N) : (iblk1 V c 1 t : Vec Ideal S10000x128 .bf16) = V c main_v0 := by
  obtain ⟨-, -, e0, e1, -⟩ := idx_facts t
  funext j
  unfold iblk1
  rw [View.read_apply]
  show V c main_v0 _ = V c main_v0 j
  refine congrArg _ ?_
  funext a
  apply Fin.ext
  match a with
  | ⟨0, _⟩ => show win1_1.index t (0 : Fin 2) * 10000 + 1 * (j 0).val = (j 0).val; omega
  | ⟨1, _⟩ => show win1_1.index t (1 : Fin 2) * 128 + 1 * (j 1).val = (j 1).val; omega

/-- What point t writes back is its block of the product of the adjacency and the support as the region finds them. -/
theorem flushed_eq (c : Dev nD) (t : Fin cfg1.N) :
    (dat1 (F := Ideal) V c).flushed 2 t
      = ((cfg1.win 2).blk t).view.read (Elt Ideal) (Cert.GraphConv.matProd (V c main_arg1) (V c main_v0)) := by
  show (cfg1.win 2).cut (grid1.coords t) ((dat1 V c).after 2 t) = _
  rw [after1_2]
  unfold out1_2
  rw [View.canon_unit_zero hz]
  simp only [View.ld_unit_zero (S := S200x10000) hz, View.ld_unit_zero (S := S10000x128) hz]
  rw [support_blk V c t, pay_eq]
  obtain ⟨-, -, -, -, e0, e1, ht⟩ := idx_facts t
  funext j
  obtain ⟨r, q, rfl⟩ : ∃ (r : Fin 200) (q : Fin 128), j = ix2 r q := ⟨j 0, j 1, eq_ix2 j⟩
  have hp : 200 * t.val + r.val < 10000 := by have := r.isLt; omega
  show Cert.GraphConv.matProd (iblk1 V c 0 t) (V c main_v0) (ix2 r q)
    = Cert.GraphConv.matProd (V c main_arg1) (V c main_v0) (((cfg1.win 2).blk t).view.emb (ix2 r q))
  have hemb : ((cfg1.win 2).blk t).view.emb (ix2 r q) = ix2 (⟨200 * t.val + r.val, hp⟩ : Fin 10000) q := by
    funext a
    apply Fin.ext
    match a with
    | ⟨0, _⟩ => show win1_2.index t (0 : Fin 2) * 200 + 1 * r.val = 200 * t.val + r.val; omega
    | ⟨1, _⟩ => show win1_2.index t (1 : Fin 2) * 128 + 1 * q.val = q.val; omega
  rw [hemb, Cert.GraphConv.matProd_apply, Cert.GraphConv.matProd_apply]
  exact Finset.sum_congr rfl fun k _ => by rw [adj_blk V c t r k ⟨200 * t.val + r.val, hp⟩ rfl]

/-- An index of the array is in point t's block iff each coordinate is in the block's range on its axis. -/
theorem mem_blk (t : Fin cfg1.N) (i : S10000x128.Idx) :
    i ∈ ((cfg1.win 2).blk t).view.set ↔ ∀ a : Fin 2, win1_2.index t a * S200x128.size a ≤ (i a).val ∧ (i a).val < win1_2.index t a * S200x128.size a + S200x128.size a := by
  show i ∈ ((View.whole main_v1).slice (win1_2.rect t)).set ↔ _
  rw [View.set_slice_whole, Rect.mem_set_unit]
  exact Iff.rfl

/-- Every index of the result array is in some point's block: row i is in the block of point i / 200. -/
theorem cover (i : S10000x128.Idx) :
    ∃ t : Fin cfg1.N, (cfg1.win 2).flush t = true ∧ i ∈ ((cfg1.win 2).blk t).view.set := by
  have h0 : (i 0).val < 10000 := (i 0).isLt
  have h1 : (i 1).val < 128 := (i 1).isLt
  have hlt : (i 0).val / 200 < grid1.N := by rw [N_1]; omega
  obtain ⟨t, ht⟩ : ∃ t : Fin cfg1.N, t.val = (i 0).val / 200 := ⟨⟨_, hlt⟩, rfl⟩
  refine ⟨t, flush1_2 t, ?_⟩
  rw [mem_blk]
  obtain ⟨-, -, -, -, e0, e1, -⟩ := idx_facts t
  intro a
  match a with
  | ⟨0, _⟩ => show win1_2.index t (0 : Fin 2) * 200 ≤ (i 0).val ∧ (i 0).val < win1_2.index t (0 : Fin 2) * 200 + 200; omega
  | ⟨1, _⟩ => show win1_2.index t (1 : Fin 2) * 128 ≤ (i 1).val ∧ (i 1).val < win1_2.index t (1 : Fin 2) * 128 + 128; omega

/-- THE RESULT ARRAY after the region: the product of the adjacency and the support as the region finds them. -/
theorem final (c : Dev nD) :
    (dat1 (F := Ideal) V c).arrAt 2 cfg1.N = Cert.GraphConv.matProd (V c main_arg1) (V c main_v0) :=
  (dat1 V c).arrAt_eq_of_cover 2 _ (fun t _ => flushed_eq V c t) cover

end Cert.KernelIdeal.Spmm

end
-- ==== Proof.KernelValue.lean ====
/-
  The kernel program's result array ends at adj · (v · W).

  The first region finds the three arguments as launched and leaves the support v · W. The second region finds the
  adjacency as launched (the first region does not touch it) and the support as the first region left it, and leaves
  their product in the result array.
-/
import proofs.«144660_g21157008900740_cont_8to1_106_10_alg».proof.Proof.KernelRun
import proofs.«144660_g21157008900740_cont_8to1_106_10_alg».proof.Proof.SupportValue
import proofs.«144660_g21157008900740_cont_8to1_106_10_alg».proof.Proof.SpmmValue

noncomputable section

namespace Cert.KernelIdeal.Whole

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The second region finds the adjacency as launched. -/
theorem entry_adj (c : Dev nD) : V1 m ρ c main_arg1 = m ((c : Thread nD τ).loc main_arg1) :=
  W1_of_ne m ρ c main_arg1 (by decide)

/-- The second region finds the support array at v · W of the launched arguments. -/
theorem entry_support (c : Dev nD) :
    V1 m ρ c main_v0 = Cert.GraphConv.matProd (m ((c : Thread nD τ).loc main_arg0)) (m ((c : Thread nD τ).loc main_arg2)) :=
  (W1_arr m ρ c 2).trans (Cert.KernelIdeal.Support.final (V0 m ρ) c)

/-- The result array after both regions is adj · (v · W) of the launched arguments. -/
theorem result_eq (c : Dev nD) :
    W2 m ρ c (Proc.devRef .tc main_v1)
      = Cert.GraphConv.result (m ((c : Thread nD τ).loc main_arg0)) (m ((c : Thread nD τ).loc main_arg1)) (m ((c : Thread nD τ).loc main_arg2)) :=
  (W2_arr m ρ c 2).trans ((Cert.KernelIdeal.Spmm.final (V1 m ρ) c).trans (by
    rw [entry_adj m ρ c, entry_support m ρ c]
    rfl))

/-- Every weakly fair execution of the kernel program terminates with the result array at adj · (v · W) of the
    launched arguments, and the arguments unchanged. -/
theorem run : θ_run defs (onTc (τ := τ) (main (F := Ideal))) ⟨m, fun _ => 0, ρ⟩ (fun r => ∀ c : Dev nD,
      r.2.mem ((c.tc : Thread nD τ).loc main_v1)
        = Cert.GraphConv.result (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (result_eq m ρ c), (h c).2⟩) (run_named m ρ)

end Cert.KernelIdeal.Whole

end
-- ==== Proof.lean ====
/-
  A dense graph convolution: the kernel program and its reference both compute adj · (v · W).

  The kernel program is two pipelined regions. The first multiplies the features v [10000, 128] by the weights
  W [128, 128] on the matrix unit and stores the support narrowed to the 16-bit format; the second, over 50 row
  blocks of the adjacency adj [10000, 10000], narrows each [200, 10000] block and multiplies it by the whole support
  into the matching [200, 128] row block of the result. The reference is two dot_general operations in the same
  order. On the extended reals a change of float format is the identity and both kinds of product are the plain
  sum over the contraction index, so both programs leave in the result array, index by index,
  the sum over k of adj (i, k) · (sum over j of v (k, j) · W (j, c)), with no rearrangement of any sum: the
  finiteness of the inputs is not used. The second result is the adjacency itself, which neither program writes.
  The idealization rewrote nothing, so it preserves the kernel trivially.
-/
import proofs.«144660_g21157008900740_cont_8to1_106_10_alg».proof.Defs
import proofs.«144660_g21157008900740_cont_8to1_106_10_alg».proof.Proof.Gen.Kernel
import proofs.«144660_g21157008900740_cont_8to1_106_10_alg».proof.Proof.Gen.Kernel.Skeleton
import proofs.«144660_g21157008900740_cont_8to1_106_10_alg».proof.Proof.Gen.Kernel.Launch
import proofs.«144660_g21157008900740_cont_8to1_106_10_alg».proof.Proof.Gen.Kernel.Points
import proofs.«144660_g21157008900740_cont_8to1_106_10_alg».proof.Proof.Gen.Kernel.Frame
import proofs.«144660_g21157008900740_cont_8to1_106_10_alg».proof.Proof.Gen.KernelIdeal
import proofs.«144660_g21157008900740_cont_8to1_106_10_alg».proof.Proof.Gen.KernelIdeal.Skeleton
import proofs.«144660_g21157008900740_cont_8to1_106_10_alg».proof.Proof.Gen.KernelIdeal.Launch
import proofs.«144660_g21157008900740_cont_8to1_106_10_alg».proof.Proof.Gen.KernelIdeal.Points
import proofs.«144660_g21157008900740_cont_8to1_106_10_alg».proof.Proof.Gen.KernelIdeal.Frame
import proofs.«144660_g21157008900740_cont_8to1_106_10_alg».proof.Proof.Gen.ReferenceIdeal
import proofs.«144660_g21157008900740_cont_8to1_106_10_alg».proof.Proof.Gen.ReferenceIdeal.Run
import proofs.«144660_g21157008900740_cont_8to1_106_10_alg».proof.Proof.Gen.ReferenceIdeal.Read
import proofs.«144660_g21157008900740_cont_8to1_106_10_alg».proof.Proof.Gen.Pre_finite_inputs
import proofs.«144660_g21157008900740_cont_8to1_106_10_alg».proof.Proof.RefValue
import proofs.«144660_g21157008900740_cont_8to1_106_10_alg».proof.Proof.KernelValue
import Idealize.ShloMosaic.Adequacy
import Idealize.ShloMosaic.Init

noncomputable section

namespace Cert.Proof

open Idealize.ShloMosaic Idealize.SL.Sem Cert.Kernel

/-- The reference runs and leaves its arguments as launched: its run with the result dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From memories agreeing on the arguments both programs end with the first result at adj · (v · W) of the kernel
    program's arguments and the second at the adjacency. -/
theorem algebraic : Cert.algebraic_KernelIdeal_ReferenceIdeal := by
  intro m ρ m' ρ' _ hagree
  refine ⟨fun c => Cert.GraphConv.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    fun c => m ((c.tc : Thread Cert.KernelIdeal.nD Cert.KernelIdeal.τ).loc Cert.KernelIdeal.main_arg1), ?_, ?_⟩
  · exact (θ_run Cert.KernelIdeal.defs _ _).mono
      (fun r h c => ⟨(h c).1, (h c).2.2.1, (h c).2.1, (h c).2.2.1, (h c).2.2.2⟩) (Cert.KernelIdeal.Whole.run m ρ)
  · refine (θ_run Cert.ReferenceIdeal.defs _ _).mono (fun r h c => ?_) (Cert.ReferenceIdeal.Value.run (F := Ideal) m' ρ')
    obtain ⟨h1, h2, h3, h4, h5⟩ := h c
    obtain ⟨a0, a1, a2⟩ := hagree c
    refine ⟨?_, h2.trans a1, h3, h4, h5⟩
    rw [h1, Cert.ReferenceIdeal.RefValue.result_eq, a0, a1, a2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_reference,
  trivial,
  algebraic⟩

end Cert.Proof

end
